-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x4096x2048 : Shape := ⟨3, ![1, 4096, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn {F : FTy → Type} [FloatOps F] (main_arg0 : FVec F S8192x4096 .f32) (main_arg1 : FVec F S1x4096x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  main_v8
-- ==== Kernel.lean ====
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩
abbrev S2048x512 : Shape := ⟨2, ![2048, 512]⟩
abbrev S512x1024 : Shape := ⟨2, ![512, 1024]⟩
abbrev S2048x1024 : Shape := ⟨2, ![2048, 1024]⟩
abbrev S2048x1 : Shape := ⟨2, ![2048, 1]⟩
abbrev S1x1024 : Shape := ⟨2, ![1, 1024]⟩
abbrev S2048 : Shape := ⟨1, ![2048]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096x2048, .f32⟩
  | .hbm, ⟨2, _⟩ => ⟨S4096x2048, .f32⟩
  | .hbm, ⟨3, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1, .f32⟩
  | .local _ .vmem, ⟨8, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S1x4096x2048_S4096x2048 : S1x4096x2048.ShapeCasts S4096x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  reduces_S2048x512_S2048 : S2048x512.Reduces [1] S2048
  shapeCasts_S2048_S2048x1 : S2048.ShapeCasts S2048x1
  reduces_S512x1024_S1024 : S512x1024.Reduces [0] S1024
  shapeCasts_S1024_S1x1024 : S1024.ShapeCasts S1x1024
  broadcasts_S2048x1_S2048x1024 : S2048x1.Broadcasts S2048x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .f32 = 32 ∨ (Rect.block (s := S4096x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x2048.size a
  hwx0_2 : ∀ i : grid0.Coords, EltTy.bits .f32 = 32 ∨ (Rect.block (s := S8192x2048) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1x4096x2048 : Shape := ⟨3, ![1, 4096, 2048]⟩
abbrev S4096x2048 : Shape := ⟨2, ![4096, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x2048, .f32⟩
  | .hbm, ⟨2, _⟩ => ⟨S4096x2048, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S1x4096x2048_S4096x2048 : S1x4096x2048.ShapeCasts S4096x2048
  reducesTo_S8192x4096_S8192_d1 : S8192x4096.ReducesTo [1] S8192
  h_S_ : 0 < S_.numel
  bcast_S8192_S8192x1_0 : S8192.BroadcastsInDim S8192x1 (![0] : Fin 1 → Fin S8192x1.rank)
  reducesTo_S4096x2048_S2048_d0 : S4096x2048.ReducesTo [0] S2048
  bcast_S2048_S1x2048_1 : S2048.BroadcastsInDim S1x2048 (![1] : Fin 1 → Fin S1x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.Pieces.lean ====
/-
  What one grid step leaves behind, as the body's arithmetic.

  The three running sums live in buffers that survive from one grid step to the next.  A step that is neither first
  nor last in its run of eight overwrites each of them once, with the step's update of what it held.  The first step
  of a run writes zero and then the update of that zero, and the later write wins.  The last step of a run updates
  the three and then writes the output block from the UPDATED sums.
-/
import proofs.«147134_j54425825575208_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- A middle step leaves in the buffer of the product sum the step's update of what the step before left there. -/
theorem midA (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : ¬cond0_0 i) (hc1 : ¬cond0_1 i)
    (x0 : Vec F S2048x512 .f32) (x1 : Vec F S512x1024 .f32) (xs0 : Vec F S2048x1024 .f32) (xs1 : Vec F S2048x1 .f32) (xs2 : Vec F S1x1024 .f32) :
    sout0_B_0 c i arg3 harg3 arg4 harg4 arg5 harg5 arg6 harg6 arg7 harg7 arg8 harg8 hc0 hc1 x0 x1 xs0 xs1 xs2 = k0_pay6 x0 x1 xs0 := by
  unfold sout0_B_0
  rw [View.read_writes_eq_canon _ _ _ (scover0_B_0 c i arg3 harg3 arg4 harg4 arg5 harg5 arg6 harg6 arg7 harg7 arg8 harg8 hc0 hc1 x0 x1 xs0 xs1 xs2)]
  unfold kernelRun0_B
  dsimp only
  rw [View.canon_unit_zero hz]
  simp only [View.readAt_eq_ld, harg3.read_unread, harg4.read_unread, harg6.read_unread,
    View.ld_unit_zero (S := S2048x512) hz, View.ld_unit_zero (S := S512x1024) hz, View.ld_unit_zero (S := S2048x1024) hz]

/-- A middle step leaves in the buffer of the row sum of squares the step's update of what the step before left there. -/
theorem midB (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : ¬cond0_0 i) (hc1 : ¬cond0_1 i)
    (x0 : Vec F S2048x512 .f32) (x1 : Vec F S512x1024 .f32) (xs0 : Vec F S2048x1024 .f32) (xs1 : Vec F S2048x1 .f32) (xs2 : Vec F S1x1024 .f32) :
    sout0_B_1 c i arg3 harg3 arg4 harg4 arg5 harg5 arg6 harg6 arg7 harg7 arg8 harg8 hc0 hc1 x0 x1 xs0 xs1 xs2 = k0_pay7 x0 xs1 := by
  unfold sout0_B_1
  rw [View.read_writes_eq_canon _ _ _ (scover0_B_1 c i arg3 harg3 arg4 harg4 arg5 harg5 arg6 harg6 arg7 harg7 arg8 harg8 hc0 hc1 x0 x1 xs0 xs1 xs2)]
  unfold kernelRun0_B
  dsimp only
  rw [View.canon_unit_zero hz]
  simp only [View.readAt_eq_ld, harg3.read_unread, harg4.read_unread, harg7.read_unread,
    View.ld_unit_zero (S := S2048x512) hz, View.ld_unit_zero (S := S512x1024) hz, View.ld_unit_zero (S := S2048x1) hz]

/-- A middle step leaves in the buffer of the column sum of squares the step's update of what the step before left there. -/
theorem midD (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : ¬cond0_0 i) (hc1 : ¬cond0_1 i)
    (x0 : Vec F S2048x512 .f32) (x1 : Vec F S512x1024 .f32) (xs0 : Vec F S2048x1024 .f32) (xs1 : Vec F S2048x1 .f32) (xs2 : Vec F S1x1024 .f32) :
    sout0_B_2 c i arg3 harg3 arg4 harg4 arg5 harg5 arg6 harg6 arg7 harg7 arg8 harg8 hc0 hc1 x0 x1 xs0 xs1 xs2 = k0_pay8 x1 xs2 := by
  unfold sout0_B_2
  rw [View.read_writes_eq_canon _ _ _ (scover0_B_2 c i arg3 harg3 arg4 harg4 arg5 harg5 arg6 harg6 arg7 harg7 arg8 harg8 hc0 hc1 x0 x1 xs0 xs1 xs2)]
  unfold kernelRun0_B
  dsimp only
  rw [View.canon_unit_zero hz]
  simp only [View.readAt_eq_ld, harg3.read_unread, harg4.read_unread, harg8.read_unread,
    View.ld_unit_zero (S := S2048x512) hz, View.ld_unit_zero (S := S512x1024) hz, View.ld_unit_zero (S := S1x1024) hz]

/-- The first step of a run leaves in the buffer of the product sum the step's update of the zero it has just written. -/
theorem firstA (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : cond0_0 i) (hc1 : ¬cond0_1 i)
    (x0 : Vec F S2048x512 .f32) (x1 : Vec F S512x1024 .f32) :
    sout0_A_0 c i arg3 harg3 arg4 harg4 arg5 harg5 arg6 harg6 arg7 harg7 arg8 harg8 hc0 hc1 x0 x1 = k0_pay6 x0 x1 k0_pay2 := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S512x1024) hz]

/-- The first step of a run leaves in the buffer of the row sum of squares the step's update of the zero it has just written. -/
theorem firstB (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : cond0_0 i) (hc1 : ¬cond0_1 i)
    (x0 : Vec F S2048x512 .f32) (x1 : Vec F S512x1024 .f32) :
    sout0_A_1 c i arg3 harg3 arg4 harg4 arg5 harg5 arg6 harg6 arg7 harg7 arg8 harg8 hc0 hc1 x0 x1 = k0_pay7 x0 k0_pay3 := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  rw [View.canon_cons_unit_zero (S := S2048x1) hz, View.readCov_unit_zero (S := S2048x1) _ hz]
  simp only [View.readAt_eq_ld, harg3.read_unread, harg4.read_unread,
    View.ld_unit_zero (S := S2048x512) hz, View.ld_unit_zero (S := S512x1024) hz]

/-- The first step of a run leaves in the buffer of the column sum of squares the step's update of the zero it has just written. -/
theorem firstD (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : cond0_0 i) (hc1 : ¬cond0_1 i)
    (x0 : Vec F S2048x512 .f32) (x1 : Vec F S512x1024 .f32) :
    sout0_A_2 c i arg3 harg3 arg4 harg4 arg5 harg5 arg6 harg6 arg7 harg7 arg8 harg8 hc0 hc1 x0 x1 = k0_pay8 x1 k0_pay4 := by
  unfold sout0_A_2
  rw [View.read_writes_eq_canon _ _ _ (scover0_A_2 c i arg3 harg3 arg4 harg4 arg5 harg5 arg6 harg6 arg7 harg7 arg8 harg8 hc0 hc1 x0 x1)]
  unfold kernelRun0_A
  dsimp only
  sl_unfold_words
  rw [View.canon_cons_unit_zero (S := S1x1024) hz, View.readCov_unit_zero (S := S1x1024) _ hz]
  simp only [View.readAt_eq_ld, harg3.read_unread, harg4.read_unread,
    View.ld_unit_zero (S := S2048x512) hz, View.ld_unit_zero (S := S512x1024) hz]

/-- The last step of a run writes the output block from the three sums as it has just updated them. -/
theorem last (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S2048x1 .f32) (harg7 : arg7.IsWhole) (arg8 : Memref sig .tc .vmem S1x1024 .f32) (harg8 : arg8.IsWhole) (hc0 : ¬cond0_0 i) (hc1 : cond0_1 i)
    (x0 : Vec F S2048x512 .f32) (x1 : Vec F S512x1024 .f32) (xs0 : Vec F S2048x1024 .f32) (xs1 : Vec F S2048x1 .f32) (xs2 : Vec F S1x1024 .f32) :
    out0_C_2 c i arg3 harg3 arg4 harg4 arg5 harg5 arg6 harg6 arg7 harg7 arg8 harg8 hc0 hc1 x0 x1 xs0 xs1 xs2 = k0_pay1 (k0_pay7 x0 xs1) (k0_pay6 x0 x1 xs0) (k0_pay8 x1 xs2) := by
  unfold out0_C_2
  rw [View.read_writes_eq_canon _ _ _ (cover0_C_2 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz, View.readCov_unit_zero (S := S2048x1) _ hz, View.readCov_unit_zero (S := S2048x1024) _ hz,
    View.readCov_unit_zero (S := S1x1024) _ hz]
  simp only [View.readAt_eq_ld, harg3.read_unread, harg4.read_unread, harg6.read_unread, harg7.read_unread, harg8.read_unread,
    View.ld_unit_zero (S := S2048x512) hz, View.ld_unit_zero (S := S512x1024) hz, View.ld_unit_zero (S := S2048x1024) hz,
    View.ld_unit_zero (S := S2048x1) hz, View.ld_unit_zero (S := S1x1024) hz]

end Cert.KernelIdeal.Pieces

end
-- ==== Proof.Distance.lean ====
/-
  The function both programs compute: the Euclidean distance between row `r` of `X` (8192 × 4096) and column
  `o` of `W` (4096 × 2048), written through the expansion

      |x - w|²  =  |x|² - 2·⟨x, w⟩ + |w|²,

  clamped below at zero before the root.  Each of the three sums runs over the 4096 shared coordinates.  The two
  squared lengths carry the zero they are accumulated from as an explicit first summand, as both programs write it.
-/
import Idealize.ShloMosaic.PureOps.Ideal
import Idealize.ShloMosaic.Lib.ValueIdx

noncomputable section

namespace Cert.Distance

open Idealize.ShloMosaic Idealize.ShloMosaic.ValueIdx

/-- The two constants, kept as the words both programs write. -/
abbrev zero : Ideal .f32 := Ideal.ofBits .f32 0x00000000#32
abbrev two : Ideal .f32 := Ideal.ofBits .f32 0x40000000#32

/-- `|x_r|²`: the sum of the squares along row `r`. -/
def rowSq (X : (⟨2, ![8192, 4096]⟩ : Shape).Idx → Ideal .f32) (r : Fin 8192) : Ideal .f32 :=
  ∑ k : Fin 4096, X (ix2 r k) * X (ix2 r k)

/-- `|w_o|²`: the sum of the squares down column `o`. -/
def colSq (W : (⟨2, ![4096, 2048]⟩ : Shape).Idx → Ideal .f32) (o : Fin 2048) : Ideal .f32 :=
  ∑ k : Fin 4096, W (ix2 k o) * W (ix2 k o)

/-- `⟨x_r, w_o⟩`. -/
def inner (X : (⟨2, ![8192, 4096]⟩ : Shape).Idx → Ideal .f32) (W : (⟨2, ![4096, 2048]⟩ : Shape).Idx → Ideal .f32)
    (r : Fin 8192) (o : Fin 2048) : Ideal .f32 :=
  ∑ k : Fin 4096, X (ix2 r k) * W (ix2 k o)

/-- The distance at `(r, o)` from the three sums. -/
def combine (x2 xw w2 : Ideal .f32) : Ideal .f32 :=
  Ideal.sqrt (max (x2 - two * xw + w2) zero)

/-- The whole result array. -/
def dist (X : (⟨2, ![8192, 4096]⟩ : Shape).Idx → Ideal .f32) (W : (⟨2, ![4096, 2048]⟩ : Shape).Idx → Ideal .f32) :
    (⟨2, ![8192, 2048]⟩ : Shape).Idx → Ideal .f32 :=
  fun i => combine (zero + rowSq X (i 0)) (inner X W (i 0) (i 1)) (zero + colSq W (i 1))

end Cert.Distance

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic at one entry.

  At a grid step the body holds a 2048 × 512 block `x` of `X` and a 512 × 1024 block `w` of `W`, and three running
  sums: `a` (2048 × 1024), `b` (a 2048 × 1 column) and `d` (a 1 × 1024 row).  One step adds to them

      a(p, q) += Σ_kk x(p, kk)·w(kk, q),     b(p) += Σ_kk x(p, kk)²,     d(q) += Σ_kk w(kk, q)²,

  the rounding of the blocks to sixteen bits before the product being the identity on the extended reals; the first
  step of a run starts the three from zero, and the last step of a run writes
  `sqrt(max(b(p) - 2·a(p, q) + d(q), 0))` at `(p, q)` of the output block.
-/
import proofs.«147134_j54425825575208_1_alg».proof.Proof.Gen.KernelIdeal.Skeleton
import proofs.«147134_j54425825575208_1_alg».proof.Proof.Distance
import proofs.«147134_j54425825575208_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Distance

/-- The three zero blocks a run starts from. -/
theorem zeroA_apply (i : S2048x1024.Idx) : k0_pay2 (F := Ideal) i = zero := by
  unfold k0_pay2
  rw [shapeCast_self]
  rfl

theorem zeroB_apply (i : S2048x1.Idx) : k0_pay3 (F := Ideal) i = zero := by
  unfold k0_pay3
  rw [shapeCast_self]
  rfl

theorem zeroD_apply (i : S1x1024.Idx) : k0_pay4 (F := Ideal) i = zero := by
  unfold k0_pay4
  rw [shapeCast_self]
  rfl

/-- A sum along the rows of a 2048 × 512 block from the zero word is, at row `p`, the plain sum of that row's entries. -/
theorem rowSum_apply (src : FVec Ideal S2048x512 .f32) (h : S2048x512.Reduces [1] S2048) (hφ : FKind.Formats .f32)
    (hacc : (0x00000000#32 : BitVec 32) = 0x00000000#32) (p : Fin 2048) :
    multiReduction .add [1] S2048 src 0x00000000#32 h hφ hacc (ix1 p) = ∑ kk : Fin 512, src (ix2 p kk) := by
  refine (Ideal.multiReduction_add_single src 0x00000000#32 h hφ hacc (ix1 p)).trans ?_
  exact Finset.sum_congr rfl fun kk _ => congrArg src (funext fun ax => Fin.ext (by
    match ax with | ⟨0, _⟩ => rfl | ⟨1, _⟩ => rfl))

/-- A sum down the columns of a 512 × 1024 block from the zero word is, at column `q`, the plain sum of that column's entries. -/
theorem colSum_apply (src : FVec Ideal S512x1024 .f32) (h : S512x1024.Reduces [0] S1024) (hφ : FKind.Formats .f32)
    (hacc : (0x00000000#32 : BitVec 32) = 0x00000000#32) (q : Fin 1024) :
    multiReduction .add [0] S1024 src 0x00000000#32 h hφ hacc (ix1 q) = ∑ kk : Fin 512, src (ix2 kk q) := by
  refine (Ideal.multiReduction_add_single src 0x00000000#32 h hφ hacc (ix1 q)).trans ?_
  exact Finset.sum_congr rfl fun kk _ => congrArg src (funext fun ax => Fin.ext (by
    match ax with | ⟨0, _⟩ => rfl | ⟨1, _⟩ => rfl))

/-- The block product's operand indices at output entry `i` and shared coordinate `k`: the left operand is read at
    `(i₀, k)`, the right one at `(k, i₁)`. -/
theorem lhs_row (i : S2048x1024.Idx) (k : dot_S2048x512_S512x1024_S2048x1024_1_0_0_1_n_n.contr.Idx) : (dot_S2048x512_S512x1024_S2048x1024_1_0_0_1_n_n.lhsIdx i k 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
theorem lhs_col (i : S2048x1024.Idx) (k : dot_S2048x512_S512x1024_S2048x1024_1_0_0_1_n_n.contr.Idx) : (dot_S2048x512_S512x1024_S2048x1024_1_0_0_1_n_n.lhsIdx i k 1).val = (k ⟨0, by decide⟩).val :=
  dot_S2048x512_S512x1024_S2048x1024_1_0_0_1_n_n.lhsIdx_val_of_single rfl i k
theorem rhs_row (i : S2048x1024.Idx) (k : dot_S2048x512_S512x1024_S2048x1024_1_0_0_1_n_n.contr.Idx) : (dot_S2048x512_S512x1024_S2048x1024_1_0_0_1_n_n.rhsIdx i k 0).val = (k ⟨0, by decide⟩).val :=
  dot_S2048x512_S512x1024_S2048x1024_1_0_0_1_n_n.rhsIdx_val_of_single rfl i k
theorem rhs_col (i : S2048x1024.Idx) (k : dot_S2048x512_S512x1024_S2048x1024_1_0_0_1_n_n.contr.Idx) : (dot_S2048x512_S512x1024_S2048x1024_1_0_0_1_n_n.rhsIdx i k 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- One step of the product sum at `(p, q)`. -/
theorem stepA_apply (x : Vec Ideal S2048x512 .f32) (w : Vec Ideal S512x1024 .f32) (a : Vec Ideal S2048x1024 .f32)
    (p : Fin 2048) (q : Fin 1024) :
    k0_pay6 (F := Ideal) x w a (ix2 p q) = a (ix2 p q) + ∑ kk : Fin 512, x (ix2 p kk) * w (ix2 kk q) := by
  unfold k0_pay6 k0_pay5
  rw [shapeCast_self, shapeCast_self, addf_apply]
  refine congrArg (a (ix2 p q) + ·) ?_
  dsimp only
  simp only [matmul]
  rw [Ideal.matmul_constant_zero_apply, ← Equiv.sum_comp (contrEquiv1 dot_S2048x512_S512x1024_S2048x1024_1_0_0_1_n_n 512 rfl rfl).symm]
  refine Finset.sum_congr rfl fun kk _ => ?_
  have hk := contrEquiv1_symm_val dot_S2048x512_S512x1024_S2048x1024_1_0_0_1_n_n 512 rfl rfl kk
  have el : dot_S2048x512_S512x1024_S2048x1024_1_0_0_1_n_n.lhsIdx (ix2 p q) ((contrEquiv1 dot_S2048x512_S512x1024_S2048x1024_1_0_0_1_n_n 512 rfl rfl).symm kk) = ix2 p kk :=
    funext fun ax => Fin.ext (by
      match ax with
      | ⟨0, _⟩ => exact lhs_row _ _
      | ⟨1, _⟩ => exact (lhs_col _ _).trans hk)
  have er : dot_S2048x512_S512x1024_S2048x1024_1_0_0_1_n_n.rhsIdx (ix2 p q) ((contrEquiv1 dot_S2048x512_S512x1024_S2048x1024_1_0_0_1_n_n 512 rfl rfl).symm kk) = ix2 kk q :=
    funext fun ax => Fin.ext (by
      match ax with
      | ⟨0, _⟩ => exact (rhs_row _ _).trans hk
      | ⟨1, _⟩ => exact rhs_col _ _)
  rw [el, er]
  rfl

/-- One step of the row sum of squares at row `p` (the column's unit coordinate `u` is `0`). -/
theorem stepB_apply (x : Vec Ideal S2048x512 .f32) (b : Vec Ideal S2048x1 .f32) (p : Fin 2048) (u : Fin 1) :
    k0_pay7 (F := Ideal) x b (ix2 p u) = b (ix2 p u) + ∑ kk : Fin 512, x (ix2 p kk) * x (ix2 p kk) := by
  unfold k0_pay7
  rw [shapeCast_self, addf_apply]
  refine congrArg (b (ix2 p u) + ·) ?_
  rw [Cert.LibColumn.shapeCast_a_a1_apply]
  exact rowSum_apply (mulf x x) _ _ _ p

/-- One step of the column sum of squares at column `q` (the row's unit coordinate `u` is `0`). -/
theorem stepD_apply (w : Vec Ideal S512x1024 .f32) (d : Vec Ideal S1x1024 .f32) (u : Fin 1) (q : Fin 1024) :
    k0_pay8 (F := Ideal) w d (ix2 u q) = d (ix2 u q) + ∑ kk : Fin 512, w (ix2 kk q) * w (ix2 kk q) := by
  unfold k0_pay8 k0_pay5
  rw [shapeCast_self, shapeCast_self, addf_apply]
  refine congrArg (d (ix2 u q) + ·) ?_
  rw [shapeCast_a_1a_apply]
  dsimp only
  exact colSum_apply (mulf w w) _ _ _ q

/-- The closing expression at `(p, q)` of the block. -/
theorem close_apply (b : Vec Ideal S2048x1 .f32) (a : Vec Ideal S2048x1024 .f32) (d : Vec Ideal S1x1024 .f32)
    (p : Fin 2048) (q : Fin 1024) :
    k0_pay1 (F := Ideal) b a d (ix2 p q) = combine (b (ix2 p (0 : Fin 1))) (a (ix2 p q)) (d (ix2 (0 : Fin 1) q)) := by
  unfold k0_pay1 combine
  show Ideal.sqrt (max (broadcastTo S2048x1024 b broadcasts_S2048x1_S2048x1024 (ix2 p q)
      - Ideal.ofBits .f32 0x40000000#32 * a (ix2 p q)
      + broadcastTo S2048x1024 d broadcasts_S1x1024_S2048x1024 (ix2 p q)) (Ideal.ofBits .f32 0x00000000#32)) = _
  rw [Cert.LibColumn.broadcastTo_a1_ab_apply, broadcastTo_1b_ab_apply]

end Cert.KernelIdeal.Payload

end
-- ==== Proof.BlockSum.lean ====
/-
  A sum over an axis of 4096 entries taken as eight consecutive blocks of 512.

  Entry `kk` of block `s` sits at position `512·s + kk` of the axis; every position is of that form for exactly
  one pair `(s, kk)` (quotient and remainder by 512), so a sum over the axis is the sum over the blocks of the
  sums inside each block.  Only commutativity and associativity of the addition are used, so this holds in the
  extended reals, infinities included.
-/
import Mathlib.Algebra.BigOperators.Fin
import Mathlib.Algebra.BigOperators.Group.Finset.Basic
import Mathlib.Data.Fintype.BigOperators

namespace Cert.BlockSum

/-- Position `kk` of block `s` on the long axis. -/
def pos (s : Fin 8) (kk : Fin 512) : Fin 4096 :=
  ⟨s.val * 512 + kk.val, by have := s.isLt; have := kk.isLt; omega⟩

@[simp] theorem pos_val (s : Fin 8) (kk : Fin 512) : (pos s kk).val = s.val * 512 + kk.val := rfl

/-- Block and offset are quotient and remainder by 512. -/
def split : Fin 8 × Fin 512 ≃ Fin 4096 where
  toFun p := pos p.1 p.2
  invFun k := (⟨k.val / 512, by have := k.isLt; omega⟩, ⟨k.val % 512, Nat.mod_lt _ (by decide)⟩)
  left_inv p := by
    obtain ⟨s, kk⟩ := p
    have := s.isLt; have := kk.isLt
    refine Prod.ext (Fin.ext ?_) (Fin.ext ?_)
    · show (s.val * 512 + kk.val) / 512 = s.val; omega
    · show (s.val * 512 + kk.val) % 512 = kk.val; omega
  right_inv k := by
    apply Fin.ext
    show k.val / 512 * 512 + k.val % 512 = k.val
    omega

/-- The sum over the axis is the sum over the eight blocks of the sums inside each. -/
theorem sum_blocks {β : Type*} [AddCommMonoid β] (f : Fin 4096 → β) :
    ∑ k, f k = ∑ s : Fin 8, ∑ kk : Fin 512, f (pos s kk) := by
  rw [← Equiv.sum_comp split f, Fintype.sum_prod_type]
  rfl

/-- The same with the blocks counted from a multiple of eight: blocks `b, b+1, …, b+7` taken modulo eight are
    blocks `0 … 7`. -/
theorem sum_range_blocks {β : Type*} [AddCommMonoid β] (f : Fin 4096 → β) (b : ℕ) (hb : b % 8 = 0) :
    ∑ s ∈ Finset.range 8, ∑ kk : Fin 512, f (pos ⟨(b + s) % 8, Nat.mod_lt _ (by decide)⟩ kk) = ∑ k, f k := by
  rw [Finset.sum_range, sum_blocks]
  refine Finset.sum_congr rfl fun s _ => ?_
  have hs : (⟨(b + s.val) % 8, Nat.mod_lt _ (by decide)⟩ : Fin 8) = s := Fin.ext (by
    show (b + s.val) % 8 = s.val
    have := s.isLt; omega)
  rw [hs]

end Cert.BlockSum
-- ==== Proof.Window.lean ====
/-
  Where a grid step reads and writes.

  The 64 grid steps are numbered `t = 16·I + 8·J + s` with `I < 4` the block of 2048 rows of `X`, `J < 2` the block of
  1024 columns of `W`, and `s < 8` the block of 512 shared coordinates.  At step `t` the body is handed
  rows `2048·I …` and shared coordinates `512·s …` of `X`, shared coordinates `512·s …` and columns `1024·J …` of `W`,
  and its output block is rows `2048·I …`, columns `1024·J …` of the result.  `W` is the weight reshaped from
  1 × 4096 × 2048 to 4096 × 2048 before the first step.
-/
import proofs.«147134_j54425825575208_1_alg».proof.Proof.Gen.KernelIdeal.Frame
import proofs.«147134_j54425825575208_1_alg».proof.Proof.BlockSum
import Idealize.ShloMosaic.Lib.ValueIdx
import Idealize.ShloMosaic.Lib.Pipeline.Value
import Idealize.ShloMosaic.Lib.StableHlo.Run

set_option maxRecDepth 16384

noncomputable section

namespace Cert.KernelIdeal.Window

open Cert.KernelIdeal Cert.KernelIdeal.Gen Idealize.ShloMosaic Idealize.ShloMosaic.TcCoe Idealize.SL.Sem
open Idealize.ShloMosaic.ValueIdx Idealize.ShloMosaic.StableHlo Cert.BlockSum

variable {F : FTy → Type} [FloatOps F]
variable (m : (ℓ : Loc nD τ sig) → Buf (Elt F) ℓ)

/-- There are 64 steps. -/
theorem lt64 (t : Fin cfg0.N) : t.val < 64 := lt_of_lt_of_eq t.isLt N_0

/-- The row block, the column block and the shared-coordinate block of a step. -/
def rowBlk (t : Fin cfg0.N) : Fin 4 := ⟨t.val / 16, by have := lt64 t; omega⟩
def colBlk (t : Fin cfg0.N) : Fin 2 := ⟨t.val / 8 % 2, Nat.mod_lt _ (by decide)⟩
def stepOf (n : ℕ) : Fin 8 := ⟨n % 8, Nat.mod_lt _ (by decide)⟩

/-- Row `p` of row block `I`, column `q` of column block `J`, in the whole arrays. -/
def rowOf (I : Fin 4) (p : Fin 2048) : Fin 8192 := ⟨I.val * 2048 + p.val, by have := I.isLt; have := p.isLt; omega⟩
def colOf (J : Fin 2) (q : Fin 1024) : Fin 2048 := ⟨J.val * 1024 + q.val, by have := J.isLt; have := q.isLt; omega⟩

/-- The three block-index maps in closed form, decided over the 64 steps. -/
theorem index_facts : ∀ t : Fin cfg0.N, win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- Entry `(p, kk)` of the block of `X` handed to step `t`. -/
theorem xblock_apply (c : Dev nD) (t : Fin cfg0.N) (p : Fin 2048) (kk : Fin 512) :
    (iblk m c 0 t : Vec F S2048x512 .f32) (ix2 p kk)
      = V m c main_arg0 (ix2 (rowOf (rowBlk t) p) (pos (stepOf t.val) kk)) := by
  obtain ⟨e0, e1, -, -, -, -⟩ := index_facts t
  unfold iblk
  rw [View.read_apply]
  show V m c main_arg0 _ = V m c main_arg0 _
  congr 1
  funext a
  apply Fin.ext
  match a with
  | ⟨0, _⟩ => show win0_0.index t (0 : Fin 2) * 2048 + 1 * p.val = t.val / 16 * 2048 + p.val; rw [e0]; omega
  | ⟨1, _⟩ => show win0_0.index t (1 : Fin 2) * 512 + 1 * kk.val = t.val % 8 * 512 + kk.val; rw [e1]; omega

/-- Entry `(kk, q)` of the block of `W` handed to step `t`. -/
theorem wblock_apply (c : Dev nD) (t : Fin cfg0.N) (kk : Fin 512) (q : Fin 1024) :
    (iblk m c 1 t : Vec F S512x1024 .f32) (ix2 kk q)
      = V m c main_v0 (ix2 (pos (stepOf t.val) kk) (colOf (colBlk t) q)) := by
  obtain ⟨-, -, e2, e3, -, -⟩ := index_facts t
  unfold iblk
  rw [View.read_apply]
  show V m c main_v0 _ = V m c main_v0 _
  congr 1
  funext a
  apply Fin.ext
  match a with
  | ⟨0, _⟩ => show win0_1.index t (0 : Fin 2) * 512 + 1 * kk.val = t.val % 8 * 512 + kk.val; rw [e2]; omega
  | ⟨1, _⟩ => show win0_1.index t (1 : Fin 2) * 1024 + 1 * q.val = t.val / 8 % 2 * 1024 + q.val; rw [e3]; omega

/-- Entry `(p, q)` of step `t`'s output block sits at `(2048·I + p, 1024·J + q)` of the result. -/
theorem oblock_emb (t : Fin cfg0.N) (p : Fin 2048) (q : Fin 1024) :
    ((cfg0.win 2).blk t).view.emb (ix2 p q) = ix2 (rowOf (rowBlk t) p) (colOf (colBlk t) q) := by
  obtain ⟨-, -, -, -, e4, e5⟩ := index_facts t
  funext a
  apply Fin.ext
  match a with
  | ⟨0, _⟩ => show win0_2.index t (0 : Fin 2) * 2048 + 1 * p.val = t.val / 16 * 2048 + p.val; rw [e4]; omega
  | ⟨1, _⟩ => show win0_2.index t (1 : Fin 2) * 1024 + 1 * q.val = t.val / 8 % 2 * 1024 + q.val; rw [e5]; omega

/-- The weight as the first step finds it: reshaped to 4096 × 2048. -/
theorem weight_eq (c : Dev nD) :
    (V m c main_v0 : S4096x2048.Idx → Elt F .f32)
      = shapeCast S4096x2048 (m ((c : Thread nD τ).loc main_arg1)) shapeCasts_S1x4096x2048_S4096x2048 := by
  dsimp only [Gen.V, Gen.hostOps0]
  after_results
  rfl

end Cert.KernelIdeal.Window

end
-- ==== Proof.Fold.lean ====
/-
  The three running sums after any step of a run, and after its last step.

  A run is eight consecutive steps `b, b+1, …, b+7` with `b` a multiple of eight: they share the row block `I` and the
  column block `J`, and step `b+s` handles shared coordinates `512·s … 512·s + 511`.  Step `b` starts each sum from zero
  and every later step adds its own block's contribution to what the step before left, so after step `b+j` a sum holds
  zero plus the contributions of steps `b … b+j`.  After the last step the eight blocks are all 4096 shared
  coordinates, so the three sums are `|x_r|²`, `⟨x_r, w_o⟩` and `|w_o|²` in full (the first and the last still with
  their leading zero).
-/
import proofs.«147134_j54425825575208_1_alg».proof.Proof.Gen.KernelIdeal.Value
import proofs.«147134_j54425825575208_1_alg».proof.Proof.Pieces
import proofs.«147134_j54425825575208_1_alg».proof.Proof.Payload
import proofs.«147134_j54425825575208_1_alg».proof.Proof.Window
import proofs.«147134_j54425825575208_1_alg».proof.Proof.Distance
import proofs.«147134_j54425825575208_1_alg».proof.Proof.BlockSum
import Idealize.ShloMosaic.Lib.Pipeline.Value
import Idealize.ShloMosaic.PureOps.Ideal.Laws

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx Cert.BlockSum Cert.Distance Cert.KernelIdeal.Window

variable (m : (ℓ : Loc nD τ sig) → Buf (Elt Ideal) ℓ)

/-- `X` and the reshaped weight `W` as the first step finds them. -/
abbrev X (c : Dev nD) : S8192x4096.Idx → Ideal .f32 := V m c main_arg0
abbrev W (c : Dev nD) : S4096x2048.Idx → Ideal .f32 := V m c main_v0

/-- What step `n` of a run with row block `I` and column block `J` adds at an entry of each running sum. -/
def addA (c : Dev nD) (I : Fin 4) (J : Fin 2) (n : ℕ) (i : S2048x1024.Idx) : Ideal .f32 :=
  ∑ kk : Fin 512, X m c (ix2 (rowOf I (i 0)) (pos (stepOf n) kk)) * W m c (ix2 (pos (stepOf n) kk) (colOf J (i 1)))
def addB (c : Dev nD) (I : Fin 4) (n : ℕ) (i : S2048x1.Idx) : Ideal .f32 :=
  ∑ kk : Fin 512, X m c (ix2 (rowOf I (i 0)) (pos (stepOf n) kk)) * X m c (ix2 (rowOf I (i 0)) (pos (stepOf n) kk))
def addD (c : Dev nD) (J : Fin 2) (n : ℕ) (i : S1x1024.Idx) : Ideal .f32 :=
  ∑ kk : Fin 512, W m c (ix2 (pos (stepOf n) kk) (colOf J (i 1))) * W m c (ix2 (pos (stepOf n) kk) (colOf J (i 1)))

/-- The steps of one run share their row block and column block. -/
theorem same_blocks (t : Fin cfg0.N) (n : ℕ) (hn : n < cfg0.N) (h1 : 8 * (t.val / 8) ≤ n) (h2 : n ≤ 8 * (t.val / 8) + 7) :
    rowBlk ⟨n, hn⟩ = rowBlk t ∧ colBlk ⟨n, hn⟩ = colBlk t := by
  have := lt64 t
  exact ⟨Fin.ext (by show n / 16 = t.val / 16; omega), Fin.ext (by show n / 8 % 2 = t.val / 8 % 2; omega)⟩

/-! ## One step, at the blocks the step is handed -/

theorem stepA_at (c : Dev nD) (t : Fin cfg0.N) (acc : Vec Ideal S2048x1024 .f32) (i : S2048x1024.Idx) :
    k0_pay6 (F := Ideal) (iblk m c 0 t) (iblk m c 1 t) acc i = acc i + addA m c (rowBlk t) (colBlk t) t.val i := by
  obtain ⟨p, q, rfl⟩ : ∃ (p : Fin 2048) (q : Fin 1024), i = ix2 p q := ⟨i 0, i 1, eq_ix2 i⟩
  refine (Payload.stepA_apply (iblk m c 0 t) (iblk m c 1 t) acc p q).trans ?_
  refine congrArg (acc (ix2 p q) + ·) (Finset.sum_congr rfl fun kk _ => ?_)
  rw [xblock_apply, wblock_apply]

theorem stepB_at (c : Dev nD) (t : Fin cfg0.N) (acc : Vec Ideal S2048x1 .f32) (i : S2048x1.Idx) :
    k0_pay7 (F := Ideal) (iblk m c 0 t) acc i = acc i + addB m c (rowBlk t) t.val i := by
  obtain ⟨p, u, rfl⟩ : ∃ (p : Fin 2048) (u : Fin 1), i = ix2 p u := ⟨i 0, i 1, eq_ix2 i⟩
  refine (Payload.stepB_apply (iblk m c 0 t) acc p u).trans ?_
  refine congrArg (acc (ix2 p u) + ·) (Finset.sum_congr rfl fun kk _ => ?_)
  rw [xblock_apply]

theorem stepD_at (c : Dev nD) (t : Fin cfg0.N) (acc : Vec Ideal S1x1024 .f32) (i : S1x1024.Idx) :
    k0_pay8 (F := Ideal) (iblk m c 1 t) acc i = acc i + addD m c (colBlk t) t.val i := by
  obtain ⟨u, q, rfl⟩ : ∃ (u : Fin 1) (q : Fin 1024), i = ix2 u q := ⟨i 0, i 1, eq_ix2 i⟩
  refine (Payload.stepD_apply (iblk m c 1 t) acc u q).trans ?_
  refine congrArg (acc (ix2 u q) + ·) (Finset.sum_congr rfl fun kk _ => ?_)
  rw [wblock_apply]

/-! ## What a step leaves in each buffer, by the step's place in its run -/

/-- The first step of a run leaves in the buffer of the product sum the update of zero. -/
theorem firstA_at (c : Dev nD) (n : ℕ) (hb : n < cfg0.N) (h0 : n % 8 = 0) (acc : Vec Ideal S2048x1024 .f32) :
    scAt0_0 m c n hb acc = k0_pay6 (F := Ideal) (iblk m c 0 (⟨n, hb⟩ : Fin cfg0.N)) (iblk m c 1 (⟨n, hb⟩ : Fin cfg0.N)) (k0_pay2 (F := Ideal)) := by
  have h1 : ¬n % 8 = 7 := by omega
  unfold scAt0_0
  rw [dif_pos h0, dif_neg h1]
  exact Pieces.firstA (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))

/-- A later step that is not the last leaves the update of what the step before left. -/
theorem midA_at (c : Dev nD) (n : ℕ) (hb : n < cfg0.N) (h0 : ¬n % 8 = 0) (h1 : ¬n % 8 = 7) (acc : Vec Ideal S2048x1024 .f32) :
    scAt0_0 m c n hb acc = k0_pay6 (F := Ideal) (iblk m c 0 (⟨n, hb⟩ : Fin cfg0.N)) (iblk m c 1 (⟨n, hb⟩ : Fin cfg0.N)) acc := by
  unfold scAt0_0
  rw [dif_neg h0, dif_neg h1]
  exact Pieces.midA (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))
    acc
    (outsAt0 m c ((⟨n, hb⟩ : Fin cfg0.N).val - 1) (Nat.lt_of_le_of_lt (Nat.sub_le _ _) (⟨n, hb⟩ : Fin cfg0.N).isLt)).2.2.1
    (outsAt0 m c ((⟨n, hb⟩ : Fin cfg0.N).val - 1) (Nat.lt_of_le_of_lt (Nat.sub_le _ _) (⟨n, hb⟩ : Fin cfg0.N).isLt)).2.2.2

/-- The first step of a run leaves in the buffer of the row sum of squares the update of zero. -/
theorem firstB_at (c : Dev nD) (n : ℕ) (hb : n < cfg0.N) (h0 : n % 8 = 0) (acc : Vec Ideal S2048x1 .f32) :
    scAt0_1 m c n hb acc = k0_pay7 (F := Ideal) (iblk m c 0 (⟨n, hb⟩ : Fin cfg0.N)) (k0_pay3 (F := Ideal)) := by
  have h1 : ¬n % 8 = 7 := by omega
  unfold scAt0_1
  rw [dif_pos h0, dif_neg h1]
  exact Pieces.firstB (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))

/-- A later step that is not the last leaves the update of what the step before left. -/
theorem midB_at (c : Dev nD) (n : ℕ) (hb : n < cfg0.N) (h0 : ¬n % 8 = 0) (h1 : ¬n % 8 = 7) (acc : Vec Ideal S2048x1 .f32) :
    scAt0_1 m c n hb acc = k0_pay7 (F := Ideal) (iblk m c 0 (⟨n, hb⟩ : Fin cfg0.N)) acc := by
  unfold scAt0_1
  rw [dif_neg h0, dif_neg h1]
  exact Pieces.midB (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))
    (outsAt0 m c ((⟨n, hb⟩ : Fin cfg0.N).val - 1) (Nat.lt_of_le_of_lt (Nat.sub_le _ _) (⟨n, hb⟩ : Fin cfg0.N).isLt)).2.1
    acc
    (outsAt0 m c ((⟨n, hb⟩ : Fin cfg0.N).val - 1) (Nat.lt_of_le_of_lt (Nat.sub_le _ _) (⟨n, hb⟩ : Fin cfg0.N).isLt)).2.2.2

/-- The first step of a run leaves in the buffer of the column sum of squares the update of zero. -/
theorem firstD_at (c : Dev nD) (n : ℕ) (hb : n < cfg0.N) (h0 : n % 8 = 0) (acc : Vec Ideal S1x1024 .f32) :
    scAt0_2 m c n hb acc = k0_pay8 (F := Ideal) (iblk m c 1 (⟨n, hb⟩ : Fin cfg0.N)) (k0_pay4 (F := Ideal)) := by
  have h1 : ¬n % 8 = 7 := by omega
  unfold scAt0_2
  rw [dif_pos h0, dif_neg h1]
  exact Pieces.firstD (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))

/-- A later step that is not the last leaves the update of what the step before left. -/
theorem midD_at (c : Dev nD) (n : ℕ) (hb : n < cfg0.N) (h0 : ¬n % 8 = 0) (h1 : ¬n % 8 = 7) (acc : Vec Ideal S1x1024 .f32) :
    scAt0_2 m c n hb acc = k0_pay8 (F := Ideal) (iblk m c 1 (⟨n, hb⟩ : Fin cfg0.N)) acc := by
  unfold scAt0_2
  rw [dif_neg h0, dif_neg h1]
  exact Pieces.midD (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N))
    (outsAt0 m c ((⟨n, hb⟩ : Fin cfg0.N).val - 1) (Nat.lt_of_le_of_lt (Nat.sub_le _ _) (⟨n, hb⟩ : Fin cfg0.N).isLt)).2.1
    (outsAt0 m c ((⟨n, hb⟩ : Fin cfg0.N).val - 1) (Nat.lt_of_le_of_lt (Nat.sub_le _ _) (⟨n, hb⟩ : Fin cfg0.N).isLt)).2.2.1
    acc

/-! ## The sums after a step that is not the last of its run -/

/-- After step `t`, not the last of its run, the buffer of the product sum holds zero plus the contributions of the run's steps so far. -/
theorem foldA (c : Dev nD) (t : Fin cfg0.N) (ht : t.val % 8 ≤ 6) (i : S2048x1024.Idx) :
    (outsAt0 m c t.val t.isLt).2.1 i
      = zero + ∑ s ∈ Finset.range (t.val % 8 + 1), addA m c (rowBlk t) (colBlk t) (8 * (t.val / 8) + s) i := by
  have hlt := lt64 t
  have hN : cfg0.N = 64 := N_0
  rw [soutsAt0_0_eq m c t]
  refine Pipeline.accAt_add_apply (fun n h => scAt0_0 m c n h (VS0_0.read (Elt Ideal) VS0_0.junk)) (scAt0_0 m c)
    (fun _ => zero) (addA m c (rowBlk t) (colBlk t)) (8 * (t.val / 8)) 6 ?_ ?_ (t.val % 8) ht _ i
  · intro h j
    refine (congrFun (firstA_at m c _ h (Nat.mul_mod_right 8 _) _) j).trans ?_
    refine (stepA_at m c ⟨_, h⟩ _ j).trans ?_
    obtain ⟨eI, eJ⟩ := same_blocks t _ h (le_refl _) (by omega)
    rw [Payload.zeroA_apply, eI, eJ]
  · intro n h acc j hlo hhi
    have h0 : ¬n % 8 = 0 := by omega
    have h1 : ¬n % 8 = 7 := by omega
    refine (congrFun (midA_at m c n h h0 h1 acc) j).trans ?_
    refine (stepA_at m c ⟨n, h⟩ acc j).trans ?_
    obtain ⟨eI, eJ⟩ := same_blocks t n h (by omega) (by omega)
    rw [eI, eJ]

/-- After step `t`, not the last of its run, the buffer of the row sum of squares holds zero plus the contributions of the run's steps so far. -/
theorem foldB (c : Dev nD) (t : Fin cfg0.N) (ht : t.val % 8 ≤ 6) (i : S2048x1.Idx) :
    (outsAt0 m c t.val t.isLt).2.2.1 i
      = zero + ∑ s ∈ Finset.range (t.val % 8 + 1), addB m c (rowBlk t) (8 * (t.val / 8) + s) i := by
  have hlt := lt64 t
  have hN : cfg0.N = 64 := N_0
  rw [soutsAt0_1_eq m c t]
  refine Pipeline.accAt_add_apply (fun n h => scAt0_1 m c n h (VS0_1.read (Elt Ideal) VS0_1.junk)) (scAt0_1 m c)
    (fun _ => zero) (addB m c (rowBlk t)) (8 * (t.val / 8)) 6 ?_ ?_ (t.val % 8) ht _ i
  · intro h j
    refine (congrFun (firstB_at m c _ h (Nat.mul_mod_right 8 _) _) j).trans ?_
    refine (stepB_at m c ⟨_, h⟩ _ j).trans ?_
    obtain ⟨eI, eJ⟩ := same_blocks t _ h (le_refl _) (by omega)
    rw [Payload.zeroB_apply, eI]
  · intro n h acc j hlo hhi
    have h0 : ¬n % 8 = 0 := by omega
    have h1 : ¬n % 8 = 7 := by omega
    refine (congrFun (midB_at m c n h h0 h1 acc) j).trans ?_
    refine (stepB_at m c ⟨n, h⟩ acc j).trans ?_
    obtain ⟨eI, eJ⟩ := same_blocks t n h (by omega) (by omega)
    rw [eI]

/-- After step `t`, not the last of its run, the buffer of the column sum of squares holds zero plus the contributions of the run's steps so far. -/
theorem foldD (c : Dev nD) (t : Fin cfg0.N) (ht : t.val % 8 ≤ 6) (i : S1x1024.Idx) :
    (outsAt0 m c t.val t.isLt).2.2.2 i
      = zero + ∑ s ∈ Finset.range (t.val % 8 + 1), addD m c (colBlk t) (8 * (t.val / 8) + s) i := by
  have hlt := lt64 t
  have hN : cfg0.N = 64 := N_0
  rw [soutsAt0_2_eq m c t]
  refine Pipeline.accAt_add_apply (fun n h => scAt0_2 m c n h (VS0_2.read (Elt Ideal) VS0_2.junk)) (scAt0_2 m c)
    (fun _ => zero) (addD m c (colBlk t)) (8 * (t.val / 8)) 6 ?_ ?_ (t.val % 8) ht _ i
  · intro h j
    refine (congrFun (firstD_at m c _ h (Nat.mul_mod_right 8 _) _) j).trans ?_
    refine (stepD_at m c ⟨_, h⟩ _ j).trans ?_
    obtain ⟨eI, eJ⟩ := same_blocks t _ h (le_refl _) (by omega)
    rw [Payload.zeroD_apply, eJ]
  · intro n h acc j hlo hhi
    have h0 : ¬n % 8 = 0 := by omega
    have h1 : ¬n % 8 = 7 := by omega
    refine (congrFun (midD_at m c n h h0 h1 acc) j).trans ?_
    refine (stepD_at m c ⟨n, h⟩ acc j).trans ?_
    obtain ⟨eI, eJ⟩ := same_blocks t n h (by omega) (by omega)
    rw [eJ]

/-! ## The sums after the last step of a run -/

/-- Zero plus seven contributions, plus the eighth, is zero plus all eight. -/
theorem eighth {β : Type*} [AddCommMonoid β] (Z : β) (M : ℕ → β) (b : ℕ) :
    (Z + ∑ s ∈ Finset.range 7, M (b + s)) + M (b + 7) = Z + ∑ s ∈ Finset.range 8, M (b + s) := by
  rw [Finset.sum_range_succ _ 7, add_assoc]

/-- Before the last step `t` of a run, the buffer of the product sum holds zero plus the contributions of the seven steps before it. -/
theorem beforeA (c : Dev nD) (t : Fin cfg0.N) (h7 : t.val % 8 = 7) (i : S2048x1024.Idx) :
    (outsAt0 m c (t.val - 1) (Nat.lt_of_le_of_lt (Nat.sub_le _ _) t.isLt)).2.1 i
      = zero + ∑ s ∈ Finset.range 7, addA m c (rowBlk t) (colBlk t) (8 * (t.val / 8) + s) i := by
  have hlt := lt64 t
  have hN : cfg0.N = 64 := N_0
  have hp : (t.val - 1) % 8 ≤ 6 := by omega
  have h := foldA m c ⟨t.val - 1, (Nat.lt_of_le_of_lt (Nat.sub_le _ _) t.isLt)⟩ hp i
  obtain ⟨eI, eJ⟩ := same_blocks t (t.val - 1) (Nat.lt_of_le_of_lt (Nat.sub_le _ _) t.isLt) (by omega) (by omega)
  rw [eI, eJ] at h
  have e7 : (t.val - 1) % 8 + 1 = 7 := by omega
  have eb : 8 * ((t.val - 1) / 8) = 8 * (t.val / 8) := by omega
  change (outsAt0 m c (t.val - 1) _).2.1 i
      = zero + ∑ s ∈ Finset.range ((t.val - 1) % 8 + 1), addA m c (rowBlk t) (colBlk t) (8 * ((t.val - 1) / 8) + s) i at h
  rw [e7, eb] at h
  exact h

/-- Before the last step `t` of a run, the buffer of the row sum of squares holds zero plus the contributions of the seven steps before it. -/
theorem beforeB (c : Dev nD) (t : Fin cfg0.N) (h7 : t.val % 8 = 7) (i : S2048x1.Idx) :
    (outsAt0 m c (t.val - 1) (Nat.lt_of_le_of_lt (Nat.sub_le _ _) t.isLt)).2.2.1 i
      = zero + ∑ s ∈ Finset.range 7, addB m c (rowBlk t) (8 * (t.val / 8) + s) i := by
  have hlt := lt64 t
  have hN : cfg0.N = 64 := N_0
  have hp : (t.val - 1) % 8 ≤ 6 := by omega
  have h := foldB m c ⟨t.val - 1, (Nat.lt_of_le_of_lt (Nat.sub_le _ _) t.isLt)⟩ hp i
  obtain ⟨eI, eJ⟩ := same_blocks t (t.val - 1) (Nat.lt_of_le_of_lt (Nat.sub_le _ _) t.isLt) (by omega) (by omega)
  rw [eI] at h
  have e7 : (t.val - 1) % 8 + 1 = 7 := by omega
  have eb : 8 * ((t.val - 1) / 8) = 8 * (t.val / 8) := by omega
  change (outsAt0 m c (t.val - 1) _).2.2.1 i
      = zero + ∑ s ∈ Finset.range ((t.val - 1) % 8 + 1), addB m c (rowBlk t) (8 * ((t.val - 1) / 8) + s) i at h
  rw [e7, eb] at h
  exact h

/-- Before the last step `t` of a run, the buffer of the column sum of squares holds zero plus the contributions of the seven steps before it. -/
theorem beforeD (c : Dev nD) (t : Fin cfg0.N) (h7 : t.val % 8 = 7) (i : S1x1024.Idx) :
    (outsAt0 m c (t.val - 1) (Nat.lt_of_le_of_lt (Nat.sub_le _ _) t.isLt)).2.2.2 i
      = zero + ∑ s ∈ Finset.range 7, addD m c (colBlk t) (8 * (t.val / 8) + s) i := by
  have hlt := lt64 t
  have hN : cfg0.N = 64 := N_0
  have hp : (t.val - 1) % 8 ≤ 6 := by omega
  have h := foldD m c ⟨t.val - 1, (Nat.lt_of_le_of_lt (Nat.sub_le _ _) t.isLt)⟩ hp i
  obtain ⟨eI, eJ⟩ := same_blocks t (t.val - 1) (Nat.lt_of_le_of_lt (Nat.sub_le _ _) t.isLt) (by omega) (by omega)
  rw [eJ] at h
  have e7 : (t.val - 1) % 8 + 1 = 7 := by omega
  have eb : 8 * ((t.val - 1) / 8) = 8 * (t.val / 8) := by omega
  change (outsAt0 m c (t.val - 1) _).2.2.2 i
      = zero + ∑ s ∈ Finset.range ((t.val - 1) % 8 + 1), addD m c (colBlk t) (8 * ((t.val - 1) / 8) + s) i at h
  rw [e7, eb] at h
  exact h

/-- After the last step of a run the product sum at `(p, q)` is `⟨x_r, w_o⟩` in full, for row `r = 2048·I + p` and column
    `o = 1024·J + q`: the eight blocks of 512 are the 4096 shared coordinates, and the leading zero is absorbed. -/
theorem totalA (c : Dev nD) (t : Fin cfg0.N) (h7 : t.val % 8 = 7) (p : Fin 2048) (q : Fin 1024) :
    k0_pay6 (F := Ideal) (iblk m c 0 t) (iblk m c 1 t) (outsAt0 m c (t.val - 1) (Nat.lt_of_le_of_lt (Nat.sub_le _ _) t.isLt)).2.1 (ix2 p q)
      = inner (X m c) (W m c) (rowOf (rowBlk t) p) (colOf (colBlk t) q) := by
  have et : t.val = 8 * (t.val / 8) + 7 := by omega
  refine (stepA_at m c t _ (ix2 p q)).trans ?_
  rw [beforeA m c t h7 (ix2 p q)]
  have hlast : addA m c (rowBlk t) (colBlk t) t.val (ix2 p q) = addA m c (rowBlk t) (colBlk t) (8 * (t.val / 8) + 7) (ix2 p q) :=
    congrArg (fun n => addA m c (rowBlk t) (colBlk t) n (ix2 p q)) et
  rw [hlast]
  refine (eighth zero (fun n => addA m c (rowBlk t) (colBlk t) n (ix2 p q)) (8 * (t.val / 8))).trans ?_
  rw [show (zero : Ideal .f32) = 0 from Ideal.ofBits_zero_f32, zero_add]
  exact sum_range_blocks (fun k => X m c (ix2 (rowOf (rowBlk t) p) k) * W m c (ix2 k (colOf (colBlk t) q)))
    (8 * (t.val / 8)) (Nat.mul_mod_right 8 _)

/-- After the last step of a run the row sum of squares at row `p` is zero plus `|x_r|²` in full. -/
theorem totalB (c : Dev nD) (t : Fin cfg0.N) (h7 : t.val % 8 = 7) (p : Fin 2048) :
    k0_pay7 (F := Ideal) (iblk m c 0 t) (outsAt0 m c (t.val - 1) (Nat.lt_of_le_of_lt (Nat.sub_le _ _) t.isLt)).2.2.1 (ix2 p (0 : Fin 1))
      = zero + rowSq (X m c) (rowOf (rowBlk t) p) := by
  have et : t.val = 8 * (t.val / 8) + 7 := by omega
  refine (stepB_at m c t _ (ix2 p (0 : Fin 1))).trans ?_
  rw [beforeB m c t h7 (ix2 p (0 : Fin 1))]
  have hlast : addB m c (rowBlk t) t.val (ix2 p (0 : Fin 1)) = addB m c (rowBlk t) (8 * (t.val / 8) + 7) (ix2 p (0 : Fin 1)) :=
    congrArg (fun n => addB m c (rowBlk t) n (ix2 p (0 : Fin 1))) et
  rw [hlast]
  refine (eighth zero (fun n => addB m c (rowBlk t) n (ix2 p (0 : Fin 1))) (8 * (t.val / 8))).trans ?_
  refine congrArg (zero + ·) ?_
  exact sum_range_blocks (fun k => X m c (ix2 (rowOf (rowBlk t) p) k) * X m c (ix2 (rowOf (rowBlk t) p) k))
    (8 * (t.val / 8)) (Nat.mul_mod_right 8 _)

/-- After the last step of a run the column sum of squares at column `q` is zero plus `|w_o|²` in full. -/
theorem totalD (c : Dev nD) (t : Fin cfg0.N) (h7 : t.val % 8 = 7) (q : Fin 1024) :
    k0_pay8 (F := Ideal) (iblk m c 1 t) (outsAt0 m c (t.val - 1) (Nat.lt_of_le_of_lt (Nat.sub_le _ _) t.isLt)).2.2.2 (ix2 (0 : Fin 1) q)
      = zero + colSq (W m c) (colOf (colBlk t) q) := by
  have et : t.val = 8 * (t.val / 8) + 7 := by omega
  refine (stepD_at m c t _ (ix2 (0 : Fin 1) q)).trans ?_
  rw [beforeD m c t h7 (ix2 (0 : Fin 1) q)]
  have hlast : addD m c (colBlk t) t.val (ix2 (0 : Fin 1) q) = addD m c (colBlk t) (8 * (t.val / 8) + 7) (ix2 (0 : Fin 1) q) :=
    congrArg (fun n => addD m c (colBlk t) n (ix2 (0 : Fin 1) q)) et
  rw [hlast]
  refine (eighth zero (fun n => addD m c (colBlk t) n (ix2 (0 : Fin 1) q)) (8 * (t.val / 8))).trans ?_
  refine congrArg (zero + ·) ?_
  exact sum_range_blocks (fun k => W m c (ix2 k (colOf (colBlk t) q)) * W m c (ix2 k (colOf (colBlk t) q)))
    (8 * (t.val / 8)) (Nat.mul_mod_right 8 _)

end Cert.KernelIdeal.Fold

end
-- ==== Proof.Result.lean ====
/-
  The kernel's result array is the distance function of `X` and the reshaped weight.

  Only the last step of each run writes its output block back.  What it writes at `(p, q)` is the closing expression of
  the three sums as that step has just completed them — `|x_r|²`, `⟨x_r, w_o⟩`, `|w_o|²` in full for the row
  `r = 2048·I + p` and the column `o = 1024·J + q` — which is the distance at `(r, o)`, the entry of the result array
  that position `(p, q)` of the block is.  The eight blocks `(I, J)` tile the 8192 × 2048 array: entry `(r, o)` lies in
  the block of the run with `I = r / 2048` and `J = o / 1024`.
-/
import proofs.«147134_j54425825575208_1_alg».proof.Proof.Gen.KernelIdeal.Value
import proofs.«147134_j54425825575208_1_alg».proof.Proof.Fold

set_option maxRecDepth 16384

noncomputable section

namespace Cert.KernelIdeal.Result

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Distance Cert.KernelIdeal.Window Cert.KernelIdeal.Fold

variable (m : (ℓ : Loc nD τ sig) → Buf (Elt Ideal) ℓ) (ρ : Dev nD → PrngReg)

/-- The result array's contents. -/
abbrev result (c : Dev nD) : Buf (Elt Ideal) ((c : Thread nD τ).loc main_v1) := dist (X m c) (W m c)

/-- What the last step of a run writes back is its block of the distance function. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  refine (flushed2_C m c t h0 h7).trans ?_
  refine (congrArg ((cfg0.win 2).cut (grid0.coords t)) (Pieces.last (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) _ _
    (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)).trans ?_
  funext j
  obtain ⟨p, q, rfl⟩ : ∃ (p : Fin 2048) (q : Fin 1024), j = ix2 p q := ⟨j 0, j 1, eq_ix2 j⟩
  show k0_pay1 (F := Ideal) (k0_pay7 (iblk m c 0 t) (outsAt0 m c (t.val - 1) (Nat.lt_of_le_of_lt (Nat.sub_le _ _) t.isLt)).2.2.1) (k0_pay6 (iblk m c 0 t) (iblk m c 1 t) (outsAt0 m c (t.val - 1) (Nat.lt_of_le_of_lt (Nat.sub_le _ _) t.isLt)).2.1)
      (k0_pay8 (iblk m c 1 t) (outsAt0 m c (t.val - 1) (Nat.lt_of_le_of_lt (Nat.sub_le _ _) t.isLt)).2.2.2) (ix2 p q)
    = dist (X m c) (W m c) (((cfg0.win 2).blk t).view.emb (ix2 p q))
  rw [oblock_emb, Payload.close_apply, totalB m c t h7 p, totalA m c t h7 p q, totalD m c t h7 q]
  rfl

/-- An entry of the result array is in step `t`'s block iff each coordinate is in the block's range on its axis. -/
theorem mem_blk (t : Fin cfg0.N) (i : S8192x2048.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- Every entry of the result array is in the block some run's last step writes back. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨tv, hdef⟩ : ∃ tv : ℕ, tv = 16 * ((i 0).val / 2048) + 8 * ((i 1).val / 1024) + 7 := ⟨_, rfl⟩
  have htv : tv < cfg0.N := by rw [show cfg0.N = 64 from N_0]; omega
  refine ⟨⟨tv, htv⟩, (flush0_2 ⟨tv, htv⟩).mpr (by show tv % 8 = 7; omega), ?_⟩
  rw [mem_blk]
  obtain ⟨-, -, -, -, e4, e5⟩ := index_facts ⟨tv, htv⟩
  intro a
  match a with
  | ⟨0, _⟩ =>
    show win0_2.index ⟨tv, htv⟩ (0 : Fin 2) * 2048 ≤ (i 0).val ∧ (i 0).val < win0_2.index ⟨tv, htv⟩ (0 : Fin 2) * 2048 + 2048
    rw [e4]; show tv / 16 * 2048 ≤ (i 0).val ∧ (i 0).val < tv / 16 * 2048 + 2048; omega
  | ⟨1, _⟩ =>
    show win0_2.index ⟨tv, htv⟩ (1 : Fin 2) * 1024 ≤ (i 1).val ∧ (i 1).val < win0_2.index ⟨tv, htv⟩ (1 : Fin 2) * 1024 + 1024
    rw [e5]; show tv / 8 % 2 * 1024 ≤ (i 1).val ∧ (i 1).val < tv / 8 % 2 * 1024 + 1024; omega

/-- So the result array ends holding the distance function. -/
theorem final (c : Dev nD) : (dats m 0 c).arrAt 2 cfg0.N = result m c :=
  (dats m 0 c).arrAt_eq_of_cover 2 (result m c) (flushed_eq m c) cover

/-- In terms of the argument arrays at launch: `X` itself and the weight reshaped to 4096 × 2048. -/
theorem result_eq (c : Dev nD) :
    result m c = dist (m ((c : Thread nD τ).loc main_arg0))
      (shapeCast S4096x2048 (m ((c : Thread nD τ).loc main_arg1)) shapeCasts_S1x4096x2048_S4096x2048) := by
  show dist (V m c main_arg0) (V m c main_v0) = _
  rw [V_main_arg0, weight_eq]

/-- The run, read: the result array at the distance function, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.RefDistance.lean ====
/-
  The reference computes the distance function.

  Read one operation at a time at an entry `(r, o)`: the row sum of `x·x` from zero, kept as a column and repeated
  along the row; the column sum of `w·w` from zero, kept as a row and repeated down the column; the matrix product as
  the sum over the shared coordinate; then `sqrt(max(x2 - 2·xw + w2, 0))`.  The weight enters only through its
  4096 × 2048 reshaping, which is left as it stands.
-/
import proofs.«147134_j54425825575208_1_alg».proof.Proof.Gen.ReferenceIdeal.Read
import proofs.«147134_j54425825575208_1_alg».proof.Proof.Distance

noncomputable section

namespace Cert.ReferenceIdeal.RefDistance

open Cert.ReferenceIdeal Cert.ReferenceIdeal.Read Idealize.ShloMosaic Idealize.ShloMosaic.ValueIdx Cert.Distance

/-- The result stage is the distance function of `x` and the reshaped weight. -/
theorem result_eq (x0 : (⟨S8192x4096, .f32⟩ : BufTy).Contents (Elt Ideal)) (x1 : (⟨S1x4096x2048, .f32⟩ : BufTy).Contents (Elt Ideal)) :
    val_main_v16 (F := Ideal) x0 x1 = dist x0 (val_main_v0 (F := Ideal) x1) := by
  funext i
  obtain ⟨r, o, rfl⟩ : ∃ (r : Fin 8192) (o : Fin 2048), i = ix2 r o := ⟨i 0, i 1, eq_ix2 i⟩
  have e2 : ∀ k : Fin 4096, idx_main_v2 (idx_main_v3 (idx_main_v10 (ix2 r o))) k = ix2 r k := fun k =>
    funext fun a => Fin.ext (by match a with | ⟨0, _⟩ => rfl | ⟨1, _⟩ => rfl)
  have e5 : ∀ k : Fin 4096, idx_main_v5 (idx_main_v6 (idx_main_v12 (ix2 r o))) k = ix2 k o := fun k =>
    funext fun a => Fin.ext (by match a with | ⟨0, _⟩ => rfl | ⟨1, _⟩ => rfl)
  have el : ∀ k : Fin 4096, lidx_main_v7 (ix2 r o) k = ix2 r k := fun k =>
    funext fun a => Fin.ext (by match a with | ⟨0, _⟩ => rfl | ⟨1, _⟩ => rfl)
  have er : ∀ k : Fin 4096, ridx_main_v7 (ix2 r o) k = ix2 k o := fun k =>
    funext fun a => Fin.ext (by match a with | ⟨0, _⟩ => rfl | ⟨1, _⟩ => rfl)
  rw [val_main_v16_apply, val_main_v15_apply, val_main_v13_apply, val_main_v11_apply, val_main_v10_apply,
    val_main_v3_apply, val_main_v2_apply, val_main_v9_apply, val_main_v8_apply, val_main_v7_apply,
    val_main_v12_apply, val_main_v6_apply, val_main_v5_apply, val_main_v14_apply]
  simp only [val_main_v1_apply, val_main_v4_apply, val_main_cst_apply, val_main_cst_0_apply, val_main_cst_1_apply,
    val_main_cst_2_apply, e2, e5, el, er, Ideal.hostUnary_sqrt_def, Ideal.maximumf_def, Ideal.addf_def,
    Ideal.subf_def, Ideal.mulf_def, Ideal.ofBits_def]
  rfl

end Cert.ReferenceIdeal.RefDistance

end
-- ==== Proof.lean ====
/-
  The kernel and its reference compute one function: the distance between row `r` of `X` (8192 × 4096) and column `o`
  of the weight `W` (4096 × 2048 once its leading unit axis is dropped), through

      sqrt(max(|x_r|² - 2·⟨x_r, w_o⟩ + |w_o|², 0)).

  The reference takes the three sums over the 4096 shared coordinates whole.  The kernel takes them in eight blocks of
  512, one per grid step of a run, carrying three running sums from step to step (started from zero at a run's first
  step) and writing its 2048 × 1024 output block at the run's last step; the rounding of the operands to sixteen bits
  before the product is the identity on the extended reals.  A sum over 4096 entries is the sum over eight blocks of the
  sums inside each block by commutativity and associativity of addition alone, which hold on the extended reals
  at the infinities too: the precondition that the inputs are finite is never opened.

  The modules: BlockSum (the sum by blocks), Distance (the function), RefDistance (the reference computes it),
  Payload (the body's arithmetic at one entry), Pieces (what a grid step leaves in the running sums and in the output
  block), Window (which entries of `X`, `W` and the result a grid step touches), Fold (the running sums after each
  step of a run), Result (the result array), and here the five claims.
-/
import proofs.«147134_j54425825575208_1_alg».proof.Defs
import proofs.«147134_j54425825575208_1_alg».proof.Proof.Gen.Kernel
import proofs.«147134_j54425825575208_1_alg».proof.Proof.Gen.Kernel.Skeleton
import proofs.«147134_j54425825575208_1_alg».proof.Proof.Gen.Kernel.Launch
import proofs.«147134_j54425825575208_1_alg».proof.Proof.Gen.Kernel.Points
import proofs.«147134_j54425825575208_1_alg».proof.Proof.Gen.Kernel.Frame
import proofs.«147134_j54425825575208_1_alg».proof.Proof.Gen.KernelIdeal
import proofs.«147134_j54425825575208_1_alg».proof.Proof.Gen.KernelIdeal.Skeleton
import proofs.«147134_j54425825575208_1_alg».proof.Proof.Gen.KernelIdeal.Launch
import proofs.«147134_j54425825575208_1_alg».proof.Proof.Gen.KernelIdeal.Points
import proofs.«147134_j54425825575208_1_alg».proof.Proof.Gen.KernelIdeal.Frame
import proofs.«147134_j54425825575208_1_alg».proof.Proof.Gen.ReferenceIdeal
import proofs.«147134_j54425825575208_1_alg».proof.Proof.Gen.KernelIdeal.Value
import proofs.«147134_j54425825575208_1_alg».proof.Proof.Gen.ReferenceIdeal.Run
import proofs.«147134_j54425825575208_1_alg».proof.Proof.Gen.ReferenceIdeal.Read
import proofs.«147134_j54425825575208_1_alg».proof.Proof.Gen.Pre_finite_inputs
import proofs.«147134_j54425825575208_1_alg».proof.Proof.Result
import proofs.«147134_j54425825575208_1_alg».proof.Proof.RefDistance
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at the distance function of `X` and the reshaped weight,
    and the reference's result is that same function of the same two arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefDistance.result_eq, (hagree c).1, (hagree c).2]
  exact (Cert.KernelIdeal.Result.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
